-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S32 .f32) (main_arg6 : FVec F S32x64 .f32) (main_arg7 : FVec F S64 .f32) (main_arg8 : FVec F S64x128 .f32) (main_arg9 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S32x64 .f32) (main_arg7 : FVec F S64 .f32) (main_arg8 : FVec F S64x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S1700000x128 : Shape := ⟨2, ![1700000, 128]⟩
abbrev S1x128 : Shape := ⟨2, ![1, 128]⟩

abbrev nBuf : Space → Nat
  | .hbm => 126
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x128, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x128, .f32⟩
  | .hbm, ⟨117, _⟩ => ⟨S1700000x1, .f32⟩
  | .hbm, ⟨118, _⟩ => ⟨S1700000x128, .f32⟩
  | .hbm, ⟨119, _⟩ => ⟨S1700000x128, .f32⟩
  | .hbm, ⟨120, _⟩ => ⟨S_, .f32⟩
  | .hbm, ⟨121, _⟩ => ⟨S100000x128, .f32⟩
  | .hbm, ⟨122, _⟩ => ⟨S1700000x1, .i32⟩
  | .hbm, ⟨123, _⟩ => ⟨S100000x128, .f32⟩
  | .hbm, ⟨124, _⟩ => ⟨S1x128, .f32⟩
  | .hbm, ⟨125, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S100000x128.size a
  hwx7_2 : ∀ i : grid7.Coords, EltTy.bits .f32 = 32 ∨ (Rect.block (s := S100000x128) S10000x128.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S1700000x128 : Shape := ⟨2, ![1700000, 128]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S32x64, .f32⟩
  | 7 => ⟨S64, .f32⟩
  | 8 => ⟨S64x128, .f32⟩
  | 9 => ⟨S128, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x32, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x32, .f32⟩
  | 83 => ⟨S1700000x1, .f32⟩
  | 84 => ⟨S1700000x32, .f32⟩
  | 85 => ⟨S1700000x32, .f32⟩
  | 86 => ⟨S_, .f32⟩
  | 87 => ⟨S100000x32, .f32⟩
  | 88 => ⟨S1700000x1, .i32⟩
  | 89 => ⟨S100000x32, .f32⟩
  | 90 => ⟨S1x32, .f32⟩
  | 91 => ⟨S100000x32, .f32⟩
  | 92 => ⟨S100000x32, .f32⟩
  | 93 => ⟨S100000x64, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x1, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x128, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x128, .f32⟩
  | 126 => ⟨S1700000x1, .f32⟩
  | 127 => ⟨S1700000x128, .f32⟩
  | _ => ⟨S100000x128, .f32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S1x128, .f32⟩
  | 6 => ⟨S100000x128, .f32⟩
  | 7 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel's program, run: every weakly fair execution terminates, and in the final memory of each core the two result
  buffers hold what the last boundary of the run holds there (`W15`: the launch memory folded through the host
  stretches and the eight regions' write-backs), the argument arrays as launched. The program is fifteen segments in a
  row, seven stretches of host operations and eight regions; each segment takes the buffers from one boundary's contents
  to the next one's, and the last boundary's contents are what the final memory holds.
-/
import proofs.«166450_j35880156790969_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Both results at the last boundary's contents, the arguments unchanged. -/
theorem run_out : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_v61) = W15 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v93 (by decide)),
       h c _ (mem_uc main_v61 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Out

end
-- ==== Proof.Edges.lean ====
/-
  The first host stretches of the kernel's program build, from the edge list, the source and destination lists with
  the self-loops appended and the per-edge weight `dinv[src] * dinv[dst]` (`dinv` the inverse square root of the
  degree where it is positive, zero elsewhere). The reference's program builds them by the same operations on the
  same argument, so at the first region's entry the three arrays hold the reference's values: first the two lists and the
  degree, then `dinv`, then the weights.
-/
import proofs.«166450_j35880156790969_1_alg».proof.Proof.Gen.KernelIdeal.Frame
import proofs.«166450_j35880156790969_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Out

open Cert.KernelIdeal Cert.KernelIdeal.Gen

variable (m : (ℓ : Loc nD τ sig) → Buf (Elt Ideal) ℓ) (ρ : Dev nD → PrngReg)

/-- After the first stretch: the sources, the edge list's first row followed by every node once. -/
theorem src1 (c : Dev nD) : W1 m ρ c (Proc.devRef .tc main_v3) = Cert.ReferenceIdeal.ReadP.val_main_v3 (m ((c : Thread nD τ).loc main_arg1)) := by
  show StableHlo.after hostOps0 (W0 m ρ c) (Proc.devRef .tc main_v3) = _
  after_results_simp
  rfl

/-- After the first stretch: the destinations, the edge list's second row followed by every node once. -/
theorem dst1 (c : Dev nD) : W1 m ρ c (Proc.devRef .tc main_v6) = Cert.ReferenceIdeal.ReadP.val_main_v6 (m ((c : Thread nD τ).loc main_arg1)) := by
  show StableHlo.after hostOps0 (W0 m ρ c) (Proc.devRef .tc main_v6) = _
  after_results_simp
  rfl

/-- After the first stretch: the degree of every node, the number of edges that end in it. -/
theorem deg1 (c : Dev nD) : W1 m ρ c (Proc.devRef .tc main_v10) = Cert.ReferenceIdeal.ReadP.val_main_v10 (m ((c : Thread nD τ).loc main_arg1)) := by
  show StableHlo.after hostOps0 (W0 m ρ c) (Proc.devRef .tc main_v10) = _
  after_results_simp
  rfl

/-- After the first stretch: where the degree is positive. -/
theorem pos1 (c : Dev nD) : W1 m ρ c (Proc.devRef .tc main_v12) = Cert.ReferenceIdeal.ReadP.val_main_v12 (m ((c : Thread nD τ).loc main_arg1)) := by
  show StableHlo.after hostOps0 (W0 m ρ c) (Proc.devRef .tc main_v12) = _
  after_results_simp
  rfl

/-- After the first stretch: the inverse square root of the degree. -/
theorem rsq1 (c : Dev nD) : W1 m ρ c (Proc.devRef .tc main_v13) = Cert.ReferenceIdeal.ReadP.val_main_v13 (m ((c : Thread nD τ).loc main_arg1)) := by
  show StableHlo.after hostOps0 (W0 m ρ c) (Proc.devRef .tc main_v13) = _
  after_results_simp
  rfl

/-- After the first stretch: the zero that stands where the degree is not positive. -/
theorem zero1 (c : Dev nD) : W1 m ρ c (Proc.devRef .tc main_cst_2) = Cert.ReferenceIdeal.ReadP.val_main_cst_2 := by
  show StableHlo.after hostOps0 (W0 m ρ c) (Proc.devRef .tc main_cst_2) = _
  after_results_simp
  rfl

/-- The second stretch selects, entry by entry, between its three operands: stated over the operands' values. -/
theorem where_step (Fv : Valuation τ sig (Elt Ideal))
    (a : (⟨Cert.ReferenceIdeal.S100000, .i1⟩ : BufTy).Contents (Elt Ideal))
    (b : (⟨Cert.ReferenceIdeal.S100000, .f32⟩ : BufTy).Contents (Elt Ideal))
    (e : (⟨Cert.ReferenceIdeal.S_, .f32⟩ : BufTy).Contents (Elt Ideal))
    (hp : Fv (Proc.devRef .tc main_v12) = a) (hr : Fv (Proc.devRef .tc main_v13) = b) (hz : Fv (Proc.devRef .tc main_cst_2) = e) :
    StableHlo.after hostOps0_1 Fv (Proc.devRef .tc main_v14)
      = select a b (broadcastInDim Cert.ReferenceIdeal.S100000 ![] Cert.ReferenceIdeal.Gen.bcast_S_S100000 (id e)) := by
  after_results_simp
  rw [hp, hr, hz]
  rfl

/-- After the second stretch: `dinv`, the inverse square root where the degree is positive and zero elsewhere. -/
theorem dinv2 (c : Dev nD) : W2 m ρ c (Proc.devRef .tc main_v14) = Cert.ReferenceIdeal.ReadP.val_main_v14 (m ((c : Thread nD τ).loc main_arg1)) :=
  (where_step (W1 m ρ c) _ _ _ (pos1 m ρ c) (rsq1 m ρ c) (zero1 m ρ c)).trans rfl

/-- The second stretch writes neither list. -/
theorem src2 (c : Dev nD) : W2 m ρ c (Proc.devRef .tc main_v3) = Cert.ReferenceIdeal.ReadP.val_main_v3 (m ((c : Thread nD τ).loc main_arg1)) := by
  have hs := src1 m ρ c
  show StableHlo.after hostOps0_1 (W1 m ρ c) (Proc.devRef .tc main_v3) = _
  generalize W1 m ρ c = Fv at hs ⊢
  after_results_simp
  exact hs
theorem dst2 (c : Dev nD) : W2 m ρ c (Proc.devRef .tc main_v6) = Cert.ReferenceIdeal.ReadP.val_main_v6 (m ((c : Thread nD τ).loc main_arg1)) := by
  have hs := dst1 m ρ c
  show StableHlo.after hostOps0_1 (W1 m ρ c) (Proc.devRef .tc main_v6) = _
  generalize W1 m ρ c = Fv at hs ⊢
  after_results_simp
  exact hs

/-- The sources at the first region's entry. -/
theorem edges_src (c : Dev nD) : W3 m ρ c (Proc.devRef .tc main_v3) = Cert.ReferenceIdeal.ReadP.val_main_v3 (m ((c : Thread nD τ).loc main_arg1)) := by
  have hs := src2 m ρ c
  show StableHlo.after hostOps0_2 (W2 m ρ c) (Proc.devRef .tc main_v3) = _
  generalize W2 m ρ c = Fv at hs ⊢
  after_results_simp
  exact hs

/-- The destinations at the first region's entry. -/
theorem edges_dst (c : Dev nD) : W3 m ρ c (Proc.devRef .tc main_v6) = Cert.ReferenceIdeal.ReadP.val_main_v6 (m ((c : Thread nD τ).loc main_arg1)) := by
  have hs := dst2 m ρ c
  show StableHlo.after hostOps0_2 (W2 m ρ c) (Proc.devRef .tc main_v6) = _
  generalize W2 m ρ c = Fv at hs ⊢
  after_results_simp
  exact hs

/-- The weights at the first region's entry: the product of the two ends' `dinv`. -/
theorem edges_norm (c : Dev nD) : W3 m ρ c (Proc.devRef .tc main_v29) = Cert.ReferenceIdeal.ReadP.val_main_v29 (m ((c : Thread nD τ).loc main_arg1)) := by
  have hd := dinv2 m ρ c
  have hs := src2 m ρ c
  have ht := dst2 m ρ c
  show StableHlo.after hostOps0_2 (W2 m ρ c) (Proc.devRef .tc main_v29) = _
  generalize W2 m ρ c = Fv at hd hs ht ⊢
  after_results_simp
  rw [hd, hs, ht]
  rfl

end Cert.KernelIdeal.Out

end
-- ==== Proof.Mat0.lean ====
/-
  Region 0 of the kernel's program multiplies a row block of its first operand by its whole second operand.
  Read at the extended reals, a change of float format is the identity and the accumulator starts at zero, so
  block `t` of the result holds, at row `r` and column `c`, the sum over `k` of `a (10000 t + r, k) * w (k, c)`.
  The ten blocks tile the rows, so after the region the whole result array is the matrix product of the two
  arrays as the region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- The matrix product of a `100000 × 128` array and a `128 × 64` array over the extended reals, entry by entry. -/
def prod0 (a : S100000x128.Idx → EReal) (w : S128x64.Idx → EReal) : S100000x64.Idx → EReal :=
  fun i => ∑ k : Fin 128, a (ix2 (⟨(i 0).val, idx2_lt0 i⟩ : Fin 100000) k) * w (ix2 k (⟨(i 1).val, idx2_lt1 i⟩ : Fin 64))

theorem zero_off0 : (![0, 0] : Fin 2 → Nat) = fun _ => 0 := funext fun a => by fin_cases a <;> rfl

/-- The left operand of the block product at output entry `j` and contraction position `k` is entry `(j 0, k)`. -/
theorem lhs0_eq (j : S10000x64.Idx) (k : Fin 128) :
    dot_S10000x128_S128x64_S10000x64_1_0_0_1_n_n.lhsIdx j ((contrEquiv1 dot_S10000x128_S128x64_S10000x64_1_0_0_1_n_n 128 rfl rfl).symm k)
      = ix2 (⟨(j 0).val, idx2_lt0 j⟩ : Fin 10000) k := by
  have hk := contrEquiv1_symm_val dot_S10000x128_S128x64_S10000x64_1_0_0_1_n_n 128 rfl rfl k
  funext a
  apply Fin.ext
  match a with
  | ⟨0, _⟩ =>
    show (dot_S10000x128_S128x64_S10000x64_1_0_0_1_n_n.lhsIdx j _ 0).val = (j 0).val
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  | ⟨1, _⟩ => exact (dot_S10000x128_S128x64_S10000x64_1_0_0_1_n_n.lhsIdx_val_of_single rfl j _).trans hk

/-- The right operand at the same place is entry `(k, j 1)`. -/
theorem rhs0_eq (j : S10000x64.Idx) (k : Fin 128) :
    dot_S10000x128_S128x64_S10000x64_1_0_0_1_n_n.rhsIdx j ((contrEquiv1 dot_S10000x128_S128x64_S10000x64_1_0_0_1_n_n 128 rfl rfl).symm k)
      = ix2 k (⟨(j 1).val, idx2_lt1 j⟩ : Fin 64) := by
  have hk := contrEquiv1_symm_val dot_S10000x128_S128x64_S10000x64_1_0_0_1_n_n 128 rfl rfl k
  funext a
  apply Fin.ext
  match a with
  | ⟨0, _⟩ => exact (dot_S10000x128_S128x64_S10000x64_1_0_0_1_n_n.rhsIdx_val_of_single rfl j _).trans hk
  | ⟨1, _⟩ =>
    show (dot_S10000x128_S128x64_S10000x64_1_0_0_1_n_n.rhsIdx j _ 1).val = (j 1).val
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- What the body stores, at an entry of the block: the row of the first block times the column of the second. -/
theorem pay0_apply (x0 : Vec Ideal S10000x128 .f32) (x1 : Vec Ideal S128x64 .f32) (j : S10000x64.Idx) :
    k0_pay1 x0 x1 j = ∑ k : Fin 128, x0 (ix2 (⟨(j 0).val, idx2_lt0 j⟩ : Fin 10000) k) * x1 (ix2 k (⟨(j 1).val, idx2_lt1 j⟩ : Fin 64)) := by
  unfold k0_pay1
  refine (Ideal.matmul_constant_zero_apply dot_S10000x128_S128x64_S10000x64_1_0_0_1_n_n none _ _ j).trans ?_
  rw [← Equiv.sum_comp (contrEquiv1 dot_S10000x128_S128x64_S10000x64_1_0_0_1_n_n 128 rfl rfl).symm]
  refine Finset.sum_congr rfl fun k _ => ?_
  rw [lhs0_eq, rhs0_eq]
  rfl

variable (V : (c : Dev nD) → (b : Ref sig .tc) → Buf (Elt Ideal) ((c : Thread nD τ).loc b))

/-- The printed index maps over the grid: the row blocks of the first operand and of the result move together with the
    point, and the second operand's one block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region found them. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zero_off0]
  simp only [View.ld_unit_zero (S := S10000x128) zero_off0, View.ld_unit_zero (S := S128x64) zero_off0]
  obtain ⟨e0, e1, e2, e3, e4, e5⟩ := idx_facts0 t
  funext j
  show k0_pay1 (fun y => V c main_arg0 (((cfg0.win 0).blk t).view.emb y)) (fun y => V c main_arg2 (((cfg0.win 1).blk t).view.emb y)) j
    = prod0 (V c main_arg0) (V c main_arg2) (((cfg0.win 2).blk t).view.emb j)
  rw [pay0_apply]
  unfold prod0
  refine Finset.sum_congr rfl fun k _ => ?_
  have h0 : ((cfg0.win 0).blk t).view.emb (ix2 (⟨(j 0).val, idx2_lt0 j⟩ : Fin 10000) k)
      = ix2 (⟨((((cfg0.win 2).blk t).view.emb j) 0).val, idx2_lt0 _⟩ : Fin 100000) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (⟨(j 1).val, idx2_lt1 j⟩ : Fin 64))
      = ix2 k (⟨((((cfg0.win 2).blk t).view.emb j) 1).val, idx2_lt1 _⟩ : Fin 64) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An entry of the result array lies in point `t`'s block exactly when its coordinates are in the block's ranges. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every entry of the result array is in the block of the point its row falls in. -/
theorem cover0 (i : S100000x64.Idx) : ∃ t : Fin cfg0.N, (cfg0.win 2).flush t = true ∧ i ∈ ((cfg0.win 2).blk t).view.set := by
  have hN : grid0.N = 10 := N_0
  have hi0 : (i 0).val < 100000 := idx2_lt0 i
  have hi1 : (i 1).val < 64 := idx2_lt1 i
  let t : Fin cfg0.N := ⟨(i 0).val / 10000, by show (i 0).val / 10000 < grid0.N; rw [hN]; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the product of the two arrays the region was entered with. -/
theorem final0 (c : Dev nD) : (dat0 V c).arrAt 2 cfg0.N = prod0 (V c main_arg0) (V c main_arg2) :=
  (dat0 V c).arrAt_eq_of_cover 2 (prod0 (V c main_arg0) (V c main_arg2)) (fun t _ => flushed0_eq V c t) cover0

end Cert.KernelIdeal.Out

end
-- ==== Proof.Bias1.lean ====
/-
  Region 1 of the kernel's program adds a one-row array to every row of a row block and takes the maximum with zero.
  Block `t` of the result holds, at row `r` and column `c`, `a (10000 t + r, c) + b (0, c)`, capped below by zero; the ten
  blocks tile the rows, so after the region the whole result array is that function of the two arrays as the
  region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- Every row of `a` plus the one row of `b`, then the maximum with zero, entry by entry over the extended reals. -/
def rowAdd1 (a : S100000x64.Idx → EReal) (b : S1x64.Idx → EReal) : S100000x64.Idx → EReal :=
  fun i => max (a i + b (ix2 (0 : Fin 1) (⟨(i 1).val, idx2_lt1 i⟩ : Fin 64))) (Ideal.ofBits .f32 0x00000000#32)

theorem zero_off1 : (![0, 0] : Fin 2 → Nat) = fun _ => 0 := funext fun a => by fin_cases a <;> rfl

/-- What the body stores, at an entry of the block. -/
theorem pay1_apply (x0 : Vec Ideal S10000x64 .f32) (x1 : Vec Ideal S1x64 .f32) (j : S10000x64.Idx) :
    k1_pay1 x0 x1 j = max (x0 j + x1 (ix2 (0 : Fin 1) (⟨(j 1).val, idx2_lt1 j⟩ : Fin 64))) (Ideal.ofBits .f32 0x00000000#32) := by
  obtain ⟨p, q, rfl⟩ : ∃ (p : Fin 10000) (q : Fin 64), j = ix2 p q := ⟨j 0, j 1, eq_ix2 j⟩
  unfold k1_pay1
  show max (shapeCast S10000x64 x0 shapeCasts_S10000x64_S10000x64 (ix2 p q) + broadcastTo S10000x64 (shapeCast S1x64 x1 shapeCasts_S1x64_S1x64) broadcasts_S1x64_S10000x64 (ix2 p q)) (Ideal.ofBits .f32 0x00000000#32) = _
  rw [shapeCast_self, shapeCast_self, broadcastTo_1b_ab_apply]

variable (V : (c : Dev nD) → (b : Ref sig .tc) → Buf (Elt Ideal) ((c : Thread nD τ).loc b))

/-- The printed index maps over the grid: the row blocks of the first operand and of the result move together with the
    point, and the one-row operand's block stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the row sum of the two arrays as the region found them. -/
theorem flushed1_eq (c : Dev nD) (t : Fin cfg1.N) :
    (dat1 V c).flushed 2 t = ((cfg1.win 2).blk t).view.read (Elt Ideal) (rowAdd1 (V c main_v43) (V c main_v44)) := by
  show (cfg1.win 2).cut (grid1.coords t) ((dat1 V c).after 2 t) = _
  rw [after1_2]
  unfold out1_2
  rw [View.canon_unit_zero zero_off1]
  simp only [View.ld_unit_zero (S := S10000x64) zero_off1, View.ld_unit_zero (S := S1x64) zero_off1]
  obtain ⟨e0, e1, e2, e3, e4, e5⟩ := idx_facts1 t
  funext j
  show k1_pay1 (fun y => V c main_v43 (((cfg1.win 0).blk t).view.emb y)) (fun y => V c main_v44 (((cfg1.win 1).blk t).view.emb y)) j
    = rowAdd1 (V c main_v43) (V c main_v44) (((cfg1.win 2).blk t).view.emb j)
  rw [pay1_apply]
  unfold rowAdd1
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (⟨(j 1).val, idx2_lt1 j⟩ : Fin 64))
      = ix2 (0 : Fin 1) (⟨((((cfg1.win 2).blk t).view.emb j) 1).val, idx2_lt1 _⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An entry of the result array lies in point `t`'s block exactly when its coordinates are in the block's ranges. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every entry of the result array is in the block of the point its row falls in. -/
theorem cover1 (i : S100000x64.Idx) : ∃ t : Fin cfg1.N, (cfg1.win 2).flush t = true ∧ i ∈ ((cfg1.win 2).blk t).view.set := by
  have hN : grid1.N = 10 := N_1
  have hi0 : (i 0).val < 100000 := idx2_lt0 i
  have hi1 : (i 1).val < 64 := idx2_lt1 i
  let t : Fin cfg1.N := ⟨(i 0).val / 10000, by show (i 0).val / 10000 < grid1.N; rw [hN]; omega⟩
  obtain ⟨e0, e1, e2, e3, e4, e5⟩ := idx_facts1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the result array is the row sum of the two arrays the region was entered with. -/
theorem final1 (c : Dev nD) : (dat1 V c).arrAt 2 cfg1.N = rowAdd1 (V c main_v43) (V c main_v44) :=
  (dat1 V c).arrAt_eq_of_cover 2 (rowAdd1 (V c main_v43) (V c main_v44)) (fun t _ => flushed1_eq V c t) cover1

end Cert.KernelIdeal.Out

end
-- ==== Proof.KeepArgs.lean ====
/-
  Each argument array, at the boundary of the run where the program next reads it, still holds what it was launched
  with: no host operation and no region before that point writes it.
-/
import proofs.«166450_j35880156790969_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.SL.Sem

/-- A stretch of host operations leaves a buffer none of them writes as it was. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

/-- Argument 0 at boundary 3 is as launched. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- Argument 2 at boundary 3 is as launched. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- Argument 3 at boundary 4 is as launched. -/
theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- Argument 4 at boundary 6 is as launched. -/
theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- Argument 5 at boundary 7 is as launched. -/
theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- Argument 6 at boundary 9 is as launched. -/
theorem arg6_at9 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by host_keeps hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- Argument 7 at boundary 10 is as launched. -/
theorem arg7_at10 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-- Argument 8 at boundary 12 is as launched. -/
theorem arg8_at12 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keeps hostOps5
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

/-- Argument 9 at boundary 13 is as launched. -/
theorem arg9_at13 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := by host_keeps hostOps5
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

end Cert.KernelIdeal.Out

end
-- ==== Proof.KeepEdges.lean ====
/-
  The edge lists (sources, destinations) and the per-edge weights are computed by the first host stretches and never
  written again, so every later stretch reads them as the first region's entry has them; and the second result, written by
  the fourth region, is read (not written) by the fifth and untouched after it.
-/
import proofs.«166450_j35880156790969_1_alg».proof.Proof.Gen.KernelIdeal.Frame
import proofs.«166450_j35880156790969_1_alg».proof.Proof.KeepArgs

set_option maxRecDepth 16384

noncomputable section

namespace Cert.KernelIdeal.Out

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- `main_v3` at boundary 4 is what it was at boundary 3. -/
theorem v3_at4_from3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- `main_v3` at boundary 7 is what it was at boundary 4. -/
theorem v3_at7_from4 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1

/-- `main_v3` at boundary 10 is what it was at boundary 7. -/
theorem v3_at10_from7 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keeps hostOps3

/-- `main_v3` at boundary 13 is what it was at boundary 10. -/
theorem v3_at13_from10 (c : Dev nD) : W13 m ρ c (Proc.devRef .tc main_v3) = W10 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := by host_keeps hostOps5

/-- `main_v6` at boundary 4 is what it was at boundary 3. -/
theorem v6_at4_from3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v6` at boundary 7 is what it was at boundary 4. -/
theorem v6_at7_from4 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1

/-- `main_v6` at boundary 10 is what it was at boundary 7. -/
theorem v6_at10_from7 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keeps hostOps3

/-- `main_v6` at boundary 13 is what it was at boundary 10. -/
theorem v6_at13_from10 (c : Dev nD) : W13 m ρ c (Proc.devRef .tc main_v6) = W10 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := by host_keeps hostOps5

/-- `main_v29` at boundary 4 is what it was at boundary 3. -/
theorem v29_at4_from3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- `main_v29` at boundary 7 is what it was at boundary 4. -/
theorem v29_at7_from4 (c : Dev nD) : W7 m ρ c (Proc.devRef .tc main_v29) = W4 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1

/-- `main_v29` at boundary 10 is what it was at boundary 7. -/
theorem v29_at10_from7 (c : Dev nD) : W10 m ρ c (Proc.devRef .tc main_v29) = W7 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by host_keeps hostOps3

/-- `main_v29` at boundary 13 is what it was at boundary 10. -/
theorem v29_at13_from10 (c : Dev nD) : W13 m ρ c (Proc.devRef .tc main_v29) = W10 m ρ c (Proc.devRef .tc main_v29) :=
  calc W13 m ρ c (Proc.devRef .tc main_v29)
    _ = W12 m ρ c (Proc.devRef .tc main_v29) := W13_of_ne m ρ c main_v29 (by decide)
    _ = W11 m ρ c (Proc.devRef .tc main_v29) := W12_of_ne m ρ c main_v29 (by decide)
    _ = W10 m ρ c (Proc.devRef .tc main_v29) := by host_keeps hostOps5

/-- The second result at the end of the run is what the fourth region left. -/
theorem v61_at15 (c : Dev nD) : W15 m ρ c (Proc.devRef .tc main_v61) = W9 m ρ c (Proc.devRef .tc main_v61) :=
  calc W15 m ρ c (Proc.devRef .tc main_v61)
    _ = W14 m ρ c (Proc.devRef .tc main_v61) := W15_of_ne m ρ c main_v61 (by decide)
    _ = W13 m ρ c (Proc.devRef .tc main_v61) := by host_keeps hostOps7
    _ = W12 m ρ c (Proc.devRef .tc main_v61) := W13_of_ne m ρ c main_v61 (by decide)
    _ = W11 m ρ c (Proc.devRef .tc main_v61) := W12_of_ne m ρ c main_v61 (by decide)
    _ = W10 m ρ c (Proc.devRef .tc main_v61) := by host_keeps hostOps5
    _ = W9 m ρ c (Proc.devRef .tc main_v61) := (W10_arr m ρ c 0).trans (((dat4 (V9 m ρ) c).arrAt_in 0 rfl _).trans (A_eq4 (V9 m ρ) c 0))

end Cert.KernelIdeal.Out

end
-- ==== Proof.Layer1.lean ====
/-
  Layer 1 of the network, on the kernel's side: a region multiplies the layer's input by its weights, a stretch of host
  operations gathers the product's rows along the edges, scales them by the edge weights and sums them into the
  destination rows, and a second region adds the bias row and caps the sum below by zero. Given what the edge arrays
  hold when the layer starts, the layer's output array is the reference's value at the same stage, as whole arrays.
-/
import proofs.«166450_j35880156790969_1_alg».proof.Proof.Gen.KernelIdeal.Frame
import proofs.«166450_j35880156790969_1_alg».proof.Proof.RefRead
import proofs.«166450_j35880156790969_1_alg».proof.Proof.Mat0
import proofs.«166450_j35880156790969_1_alg».proof.Proof.Bias1
import proofs.«166450_j35880156790969_1_alg».proof.Proof.KeepArgs
import proofs.«166450_j35880156790969_1_alg».proof.Proof.KeepEdges
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo
open Idealize.ShloMosaic.ValueIdx

namespace Cert.KernelIdeal.Out

open Cert.KernelIdeal Cert.KernelIdeal.Gen

variable (m : (ℓ : Loc nD τ sig) → Buf (Elt Ideal) ℓ) (ρ : Dev nD → PrngReg)

/-- The kernel's block-tiled product of the layer's input and weights is the host's `dot_general` of the same arrays: entry
    by entry both are the sum over the contracted axis of the row's entries times the column's. -/
theorem prod0_ref (c : Dev nD) :
    prod0 (m ((c : Thread nD τ).loc main_arg0)) (m ((c : Thread nD τ).loc main_arg2)) = Cert.ReferenceIdeal.ReadP.val_main_v30 (m ((c : Thread nD τ).loc main_arg0)) (m ((c : Thread nD τ).loc main_arg2)) := by
  funext i
  rw [Cert.ReferenceIdeal.ReadP.val_main_v30_apply]
  unfold prod0
  refine Finset.sum_congr rfl fun k _ => ?_
  have el : Cert.ReferenceIdeal.ReadP.lidx_main_v30 i k = ix2 (⟨(i 0).val, idx2_lt0 i⟩ : Fin 100000) k :=
    funext fun a => by match a with | ⟨0, _⟩ => rfl | ⟨1, _⟩ => rfl
  have er : Cert.ReferenceIdeal.ReadP.ridx_main_v30 i k = ix2 k (⟨(i 1).val, idx2_lt1 i⟩ : Fin 64) :=
    funext fun a => by match a with | ⟨0, _⟩ => rfl | ⟨1, _⟩ => rfl
  rw [el, er]

/-- After the first region the product array holds the reference's product. -/
theorem mat1_out (c : Dev nD) :
    W4 m ρ c (Proc.devRef .tc main_v30) = Cert.ReferenceIdeal.ReadP.val_main_v30 (m ((c : Thread nD τ).loc main_arg0)) (m ((c : Thread nD τ).loc main_arg2)) := by
  refine (W4_arr m ρ c 2).trans ?_
  rw [final0 (V3 m ρ) c]
  show prod0 (W3 m ρ c (Proc.devRef .tc main_arg0)) (W3 m ρ c (Proc.devRef .tc main_arg2)) = _
  rw [arg0_at3 m ρ c, arg2_at3 m ρ c]
  exact prod0_ref m c

/-- After the host stretch the aggregated array holds the reference's: the same operations on the same operands. -/
theorem agg1_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hmat : W4 m ρ c (Proc.devRef .tc main_v30) = Cert.ReferenceIdeal.ReadP.val_main_v30 (m ((c : Thread nD τ).loc main_arg0)) (m ((c : Thread nD τ).loc main_arg2))) :
    W5 m ρ c (Proc.devRef .tc main_v43) = Cert.ReferenceIdeal.ReadP.val_main_v43 (m ((c : Thread nD τ).loc main_arg0)) (m ((c : Thread nD τ).loc main_arg1)) (m ((c : Thread nD τ).loc main_arg2)) := by
  show StableHlo.after hostOps1 (W4 m ρ c) (Proc.devRef .tc main_v43) = _
  after_results_simp
  rw [hmat, v3_at4_from3 m ρ c, v6_at4_from3 m ρ c, v29_at4_from3 m ρ c, h3, h6, h29]
  rfl

/-- After the host stretch the bias row, reshaped to one row, holds the bias entries. -/
theorem brow1_out (c : Dev nD) (q : Fin 64) :
    W5 m ρ c (Proc.devRef .tc main_v44) (ix2 (0 : Fin 1) q) = (m ((c : Thread nD τ).loc main_arg3)) (ix1 q) := by
  show StableHlo.after hostOps1 (W4 m ρ c) (Proc.devRef .tc main_v44) (ix2 (0 : Fin 1) q) = _
  after_results_simp
  rw [arg3_at4 m ρ c]
  exact shapeCast_a_1a_apply _ _ 0 q

/-- The layer's output array is the reference's value at the same stage. -/
theorem layer1_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1))) :
    W6 m ρ c (Proc.devRef .tc main_v45) = Cert.ReferenceIdeal.ReadP.val_main_v47 (m ((c : Thread nD τ).loc main_arg0)) (m ((c : Thread nD τ).loc main_arg1)) (m ((c : Thread nD τ).loc main_arg2)) (m ((c : Thread nD τ).loc main_arg3)) := by
  have hmat := mat1_out m ρ c
  have hagg := agg1_out m ρ c h3 h6 h29 hmat
  refine (W6_arr m ρ c 2).trans ?_
  rw [final1 (V5 m ρ) c]
  funext i
  show rowAdd1 (W5 m ρ c (Proc.devRef .tc main_v43)) (W5 m ρ c (Proc.devRef .tc main_v44)) i = _
  rw [Cert.ReferenceIdeal.ReadP.val_main_v47_apply, Cert.ReferenceIdeal.ReadP.val_main_v46_apply, Cert.ReferenceIdeal.ReadP.val_main_v45_apply, Cert.ReferenceIdeal.ReadP.val_main_v44_apply, Cert.ReferenceIdeal.ReadP.val_main_call1_v0_apply, Cert.ReferenceIdeal.ReadP.val_main_call1_cst_apply]
  unfold rowAdd1
  rw [hagg, brow1_out m ρ c]
  have hidx : ix1 (⟨(i 1).val, idx2_lt1 i⟩ : Fin 64) = Cert.ReferenceIdeal.ReadP.idx_main_v44 (Cert.ReferenceIdeal.ReadP.idx_main_v45 i) :=
    funext fun a => by match a with | ⟨0, _⟩ => rfl
  rw [hidx]
  rfl

end Cert.KernelIdeal.Out

end
-- ==== Proof.Mat2.lean ====
/-
  Region 2 of the kernel's program multiplies a row block of its first operand by its whole second operand.
  Read at the extended reals, a change of float format is the identity and the accumulator starts at zero, so
  block `t` of the result holds, at row `r` and column `c`, the sum over `k` of `a (10000 t + r, k) * w (k, c)`.
  The ten blocks tile the rows, so after the region the whole result array is the matrix product of the two
  arrays as the region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- The matrix product of a `100000 × 64` array and a `64 × 32` array over the extended reals, entry by entry. -/
def prod2 (a : S100000x64.Idx → EReal) (w : S64x32.Idx → EReal) : S100000x32.Idx → EReal :=
  fun i => ∑ k : Fin 64, a (ix2 (⟨(i 0).val, idx2_lt0 i⟩ : Fin 100000) k) * w (ix2 k (⟨(i 1).val, idx2_lt1 i⟩ : Fin 32))

theorem zero_off2 : (![0, 0] : Fin 2 → Nat) = fun _ => 0 := funext fun a => by fin_cases a <;> rfl

/-- The left operand of the block product at output entry `j` and contraction position `k` is entry `(j 0, k)`. -/
theorem lhs2_eq (j : S10000x32.Idx) (k : Fin 64) :
    dot_S10000x64_S64x32_S10000x32_1_0_0_1_n_n.lhsIdx j ((contrEquiv1 dot_S10000x64_S64x32_S10000x32_1_0_0_1_n_n 64 rfl rfl).symm k)
      = ix2 (⟨(j 0).val, idx2_lt0 j⟩ : Fin 10000) k := by
  have hk := contrEquiv1_symm_val dot_S10000x64_S64x32_S10000x32_1_0_0_1_n_n 64 rfl rfl k
  funext a
  apply Fin.ext
  match a with
  | ⟨0, _⟩ =>
    show (dot_S10000x64_S64x32_S10000x32_1_0_0_1_n_n.lhsIdx j _ 0).val = (j 0).val
    unfold DotDims.lhsIdx
    rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
    rfl
  | ⟨1, _⟩ => exact (dot_S10000x64_S64x32_S10000x32_1_0_0_1_n_n.lhsIdx_val_of_single rfl j _).trans hk

/-- The right operand at the same place is entry `(k, j 1)`. -/
theorem rhs2_eq (j : S10000x32.Idx) (k : Fin 64) :
    dot_S10000x64_S64x32_S10000x32_1_0_0_1_n_n.rhsIdx j ((contrEquiv1 dot_S10000x64_S64x32_S10000x32_1_0_0_1_n_n 64 rfl rfl).symm k)
      = ix2 k (⟨(j 1).val, idx2_lt1 j⟩ : Fin 32) := by
  have hk := contrEquiv1_symm_val dot_S10000x64_S64x32_S10000x32_1_0_0_1_n_n 64 rfl rfl k
  funext a
  apply Fin.ext
  match a with
  | ⟨0, _⟩ => exact (dot_S10000x64_S64x32_S10000x32_1_0_0_1_n_n.rhsIdx_val_of_single rfl j _).trans hk
  | ⟨1, _⟩ =>
    show (dot_S10000x64_S64x32_S10000x32_1_0_0_1_n_n.rhsIdx j _ 1).val = (j 1).val
    unfold DotDims.rhsIdx
    rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
    rfl

/-- What the body stores, at an entry of the block: the row of the first block times the column of the second. -/
theorem pay2_apply (x0 : Vec Ideal S10000x64 .f32) (x1 : Vec Ideal S64x32 .f32) (j : S10000x32.Idx) :
    k2_pay1 x0 x1 j = ∑ k : Fin 64, x0 (ix2 (⟨(j 0).val, idx2_lt0 j⟩ : Fin 10000) k) * x1 (ix2 k (⟨(j 1).val, idx2_lt1 j⟩ : Fin 32)) := by
  unfold k2_pay1
  simp only [shapeCast_self]
  refine (Ideal.matmul_constant_zero_apply dot_S10000x64_S64x32_S10000x32_1_0_0_1_n_n none _ _ j).trans ?_
  rw [← Equiv.sum_comp (contrEquiv1 dot_S10000x64_S64x32_S10000x32_1_0_0_1_n_n 64 rfl rfl).symm]
  refine Finset.sum_congr rfl fun k _ => ?_
  rw [lhs2_eq, rhs2_eq]
  rfl

variable (V : (c : Dev nD) → (b : Ref sig .tc) → Buf (Elt Ideal) ((c : Thread nD τ).loc b))

/-- The printed index maps over the grid: the row blocks of the first operand and of the result move together with the
    point, and the second operand's one block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region found them. -/
theorem flushed2_eq (c : Dev nD) (t : Fin cfg2.N) :
    (dat2 V c).flushed 2 t = ((cfg2.win 2).blk t).view.read (Elt Ideal) (prod2 (V c main_v45) (V c main_arg4)) := by
  show (cfg2.win 2).cut (grid2.coords t) ((dat2 V c).after 2 t) = _
  rw [after2_2]
  unfold out2_2
  rw [View.canon_unit_zero zero_off2]
  simp only [View.ld_unit_zero (S := S10000x64) zero_off2, View.ld_unit_zero (S := S64x32) zero_off2]
  obtain ⟨e0, e1, e2, e3, e4, e5⟩ := idx_facts2 t
  funext j
  show k2_pay1 (fun y => V c main_v45 (((cfg2.win 0).blk t).view.emb y)) (fun y => V c main_arg4 (((cfg2.win 1).blk t).view.emb y)) j
    = prod2 (V c main_v45) (V c main_arg4) (((cfg2.win 2).blk t).view.emb j)
  rw [pay2_apply]
  unfold prod2
  refine Finset.sum_congr rfl fun k _ => ?_
  have h0 : ((cfg2.win 0).blk t).view.emb (ix2 (⟨(j 0).val, idx2_lt0 j⟩ : Fin 10000) k)
      = ix2 (⟨((((cfg2.win 2).blk t).view.emb j) 0).val, idx2_lt0 _⟩ : Fin 100000) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (ix2 k (⟨(j 1).val, idx2_lt1 j⟩ : Fin 32))
      = ix2 k (⟨((((cfg2.win 2).blk t).view.emb j) 1).val, idx2_lt1 _⟩ : Fin 32) := by
    funext a; apply Fin.ext
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [h0, h1]

/-- An entry of the result array lies in point `t`'s block exactly when its coordinates are in the block's ranges. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- Every entry of the result array is in the block of the point its row falls in. -/
theorem cover2 (i : S100000x32.Idx) : ∃ t : Fin cfg2.N, (cfg2.win 2).flush t = true ∧ i ∈ ((cfg2.win 2).blk t).view.set := by
  have hN : grid2.N = 10 := N_2
  have hi0 : (i 0).val < 100000 := idx2_lt0 i
  have hi1 : (i 1).val < 32 := idx2_lt1 i
  let t : Fin cfg2.N := ⟨(i 0).val / 10000, by show (i 0).val / 10000 < grid2.N; rw [hN]; omega⟩
  obtain ⟨e0, e1, e2, e3, e4, e5⟩ := idx_facts2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- After the region the result array is the product of the two arrays the region was entered with. -/
theorem final2 (c : Dev nD) : (dat2 V c).arrAt 2 cfg2.N = prod2 (V c main_v45) (V c main_arg4) :=
  (dat2 V c).arrAt_eq_of_cover 2 (prod2 (V c main_v45) (V c main_arg4)) (fun t _ => flushed2_eq V c t) cover2

end Cert.KernelIdeal.Out

end
-- ==== Proof.Bias3.lean ====
/-
  Region 3 of the kernel's program adds a one-row array to every row of a row block.
  Block `t` of the result holds, at row `r` and column `c`, `a (10000 t + r, c) + b (0, c)`; the ten
  blocks tile the rows, so after the region the whole result array is that function of the two arrays as the
  region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- Every row of `a` plus the one row of `b`, entry by entry over the extended reals. -/
def rowAdd3 (a : S100000x32.Idx → EReal) (b : S1x32.Idx → EReal) : S100000x32.Idx → EReal :=
  fun i => a i + b (ix2 (0 : Fin 1) (⟨(i 1).val, idx2_lt1 i⟩ : Fin 32))

theorem zero_off3 : (![0, 0] : Fin 2 → Nat) = fun _ => 0 := funext fun a => by fin_cases a <;> rfl

/-- What the body stores, at an entry of the block. -/
theorem pay3_apply (x0 : Vec Ideal S10000x32 .f32) (x1 : Vec Ideal S1x32 .f32) (j : S10000x32.Idx) :
    k3_pay1 x0 x1 j = x0 j + x1 (ix2 (0 : Fin 1) (⟨(j 1).val, idx2_lt1 j⟩ : Fin 32)) := by
  obtain ⟨p, q, rfl⟩ : ∃ (p : Fin 10000) (q : Fin 32), j = ix2 p q := ⟨j 0, j 1, eq_ix2 j⟩
  unfold k3_pay1
  show shapeCast S10000x32 x0 shapeCasts_S10000x32_S10000x32 (ix2 p q) + broadcastTo S10000x32 (shapeCast S1x32 x1 shapeCasts_S1x32_S1x32) broadcasts_S1x32_S10000x32 (ix2 p q) = _
  rw [shapeCast_self, shapeCast_self, broadcastTo_1b_ab_apply]

variable (V : (c : Dev nD) → (b : Ref sig .tc) → Buf (Elt Ideal) ((c : Thread nD τ).loc b))

/-- The printed index maps over the grid: the row blocks of the first operand and of the result move together with the
    point, and the one-row operand's block stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the row sum of the two arrays as the region found them. -/
theorem flushed3_eq (c : Dev nD) (t : Fin cfg3.N) :
    (dat3 V c).flushed 2 t = ((cfg3.win 2).blk t).view.read (Elt Ideal) (rowAdd3 (V c main_v59) (V c main_v60)) := by
  show (cfg3.win 2).cut (grid3.coords t) ((dat3 V c).after 2 t) = _
  rw [after3_2]
  unfold out3_2
  rw [View.canon_unit_zero zero_off3]
  simp only [View.ld_unit_zero (S := S10000x32) zero_off3, View.ld_unit_zero (S := S1x32) zero_off3]
  obtain ⟨e0, e1, e2, e3, e4, e5⟩ := idx_facts3 t
  funext j
  show k3_pay1 (fun y => V c main_v59 (((cfg3.win 0).blk t).view.emb y)) (fun y => V c main_v60 (((cfg3.win 1).blk t).view.emb y)) j
    = rowAdd3 (V c main_v59) (V c main_v60) (((cfg3.win 2).blk t).view.emb j)
  rw [pay3_apply]
  unfold rowAdd3
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (ix2 (0 : Fin 1) (⟨(j 1).val, idx2_lt1 j⟩ : Fin 32))
      = ix2 (0 : Fin 1) (⟨((((cfg3.win 2).blk t).view.emb j) 1).val, idx2_lt1 _⟩ : Fin 32) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]

/-- An entry of the result array lies in point `t`'s block exactly when its coordinates are in the block's ranges. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v61).slice (win3_2.rect t)).set ↔ _
  rw [View.set_slice_whole, Rect.mem_set_unit]
  exact Iff.rfl

/-- Every entry of the result array is in the block of the point its row falls in. -/
theorem cover3 (i : S100000x32.Idx) : ∃ t : Fin cfg3.N, (cfg3.win 2).flush t = true ∧ i ∈ ((cfg3.win 2).blk t).view.set := by
  have hN : grid3.N = 10 := N_3
  have hi0 : (i 0).val < 100000 := idx2_lt0 i
  have hi1 : (i 1).val < 32 := idx2_lt1 i
  let t : Fin cfg3.N := ⟨(i 0).val / 10000, by show (i 0).val / 10000 < grid3.N; rw [hN]; omega⟩
  obtain ⟨e0, e1, e2, e3, e4, e5⟩ := idx_facts3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- After the region the result array is the row sum of the two arrays the region was entered with. -/
theorem final3 (c : Dev nD) : (dat3 V c).arrAt 2 cfg3.N = rowAdd3 (V c main_v59) (V c main_v60) :=
  (dat3 V c).arrAt_eq_of_cover 2 (rowAdd3 (V c main_v59) (V c main_v60)) (fun t _ => flushed3_eq V c t) cover3

end Cert.KernelIdeal.Out

end
-- ==== Proof.Layer2.lean ====
/-
  Layer 2 of the network, on the kernel's side: a region multiplies the layer's input by its weights, a stretch of host
  operations gathers the product's rows along the edges, scales them by the edge weights and sums them into the
  destination rows, and a second region adds the bias row. Given what the edge arrays and the layer's input
  hold when the layer starts, the layer's output array is the reference's value at the same stage, as whole arrays.
-/
import proofs.«166450_j35880156790969_1_alg».proof.Proof.Gen.KernelIdeal.Frame
import proofs.«166450_j35880156790969_1_alg».proof.Proof.RefRead
import proofs.«166450_j35880156790969_1_alg».proof.Proof.Mat2
import proofs.«166450_j35880156790969_1_alg».proof.Proof.Bias3
import proofs.«166450_j35880156790969_1_alg».proof.Proof.KeepArgs
import proofs.«166450_j35880156790969_1_alg».proof.Proof.KeepEdges
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo
open Idealize.ShloMosaic.ValueIdx

namespace Cert.KernelIdeal.Out

open Cert.KernelIdeal Cert.KernelIdeal.Gen

variable (m : (ℓ : Loc nD τ sig) → Buf (Elt Ideal) ℓ) (ρ : Dev nD → PrngReg)

/-- The kernel's block-tiled product of the layer's input and weights is the host's `dot_general` of the same arrays: entry
    by entry both are the sum over the contracted axis of the row's entries times the column's. -/
theorem prod2_ref (c : Dev nD) :
    prod2 (Cert.ReferenceIdeal.ReadP.val_main_v47 (m ((c : Thread nD τ).loc main_arg0)) (m ((c : Thread nD τ).loc main_arg1)) (m ((c : Thread nD τ).loc main_arg2)) (m ((c : Thread nD τ).loc main_arg3))) (m ((c : Thread nD τ).loc main_arg4)) = Cert.ReferenceIdeal.ReadP.val_main_v48 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [Cert.ReferenceIdeal.ReadP.val_main_v48_apply]
  unfold prod2
  refine Finset.sum_congr rfl fun k _ => ?_
  have el : Cert.ReferenceIdeal.ReadP.lidx_main_v48 i k = ix2 (⟨(i 0).val, idx2_lt0 i⟩ : Fin 100000) k :=
    funext fun a => by match a with | ⟨0, _⟩ => rfl | ⟨1, _⟩ => rfl
  have er : Cert.ReferenceIdeal.ReadP.ridx_main_v48 i k = ix2 k (⟨(i 1).val, idx2_lt1 i⟩ : Fin 32) :=
    funext fun a => by match a with | ⟨0, _⟩ => rfl | ⟨1, _⟩ => rfl
  rw [el, er]

/-- After the first region the product array holds the reference's product. -/
theorem mat2_out (c : Dev nD)
    (hin : W6 m ρ c (Proc.devRef .tc main_v45) = Cert.ReferenceIdeal.ReadP.val_main_v47 (m ((c : Thread nD τ).loc main_arg0)) (m ((c : Thread nD τ).loc main_arg1)) (m ((c : Thread nD τ).loc main_arg2)) (m ((c : Thread nD τ).loc main_arg3))) :
    W7 m ρ c (Proc.devRef .tc main_v46) = Cert.ReferenceIdeal.ReadP.val_main_v48 (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [final2 (V6 m ρ) c]
  show prod2 (W6 m ρ c (Proc.devRef .tc main_v45)) (W6 m ρ c (Proc.devRef .tc main_arg4)) = _
  rw [hin, arg4_at6 m ρ c]
  exact prod2_ref m c

/-- After the host stretch the aggregated array holds the reference's: the same operations on the same operands. -/
theorem agg2_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hmat : W7 m ρ c (Proc.devRef .tc main_v46) = Cert.ReferenceIdeal.ReadP.val_main_v48 (m ((c : Thread nD τ).loc main_arg0)) (m ((c : Thread nD τ).loc main_arg1)) (m ((c : Thread nD τ).loc main_arg2)) (m ((c : Thread nD τ).loc main_arg3)) (m ((c : Thread nD τ).loc main_arg4))) :
    W8 m ρ c (Proc.devRef .tc main_v59) = Cert.ReferenceIdeal.ReadP.val_main_v61 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v59) = _
  after_results_simp
  rw [hmat, v3_at7_from4 m ρ c, v3_at4_from3 m ρ c, v6_at7_from4 m ρ c, v6_at4_from3 m ρ c, v29_at7_from4 m ρ c, v29_at4_from3 m ρ c, h3, h6, h29]
  rfl

/-- After the host stretch the bias row, reshaped to one row, holds the bias entries. -/
theorem brow2_out (c : Dev nD) (q : Fin 32) :
    W8 m ρ c (Proc.devRef .tc main_v60) (ix2 (0 : Fin 1) q) = (m ((c : Thread nD τ).loc main_arg5)) (ix1 q) := by
  show StableHlo.after hostOps3 (W7 m ρ c) (Proc.devRef .tc main_v60) (ix2 (0 : Fin 1) q) = _
  after_results_simp
  rw [arg5_at7 m ρ c]
  exact shapeCast_a_1a_apply _ _ 0 q

/-- The layer's output array is the reference's value at the same stage. -/
theorem layer2_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hin : W6 m ρ c (Proc.devRef .tc main_v45) = Cert.ReferenceIdeal.ReadP.val_main_v47 (m ((c : Thread nD τ).loc main_arg0)) (m ((c : Thread nD τ).loc main_arg1)) (m ((c : Thread nD τ).loc main_arg2)) (m ((c : Thread nD τ).loc main_arg3))) :
    W9 m ρ c (Proc.devRef .tc main_v61) = Cert.ReferenceIdeal.ReadP.val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hmat := mat2_out m ρ c hin
  have hagg := agg2_out m ρ c h3 h6 h29 hmat
  refine (W9_arr m ρ c 2).trans ?_
  rw [final3 (V8 m ρ) c]
  funext i
  show rowAdd3 (W8 m ρ c (Proc.devRef .tc main_v59)) (W8 m ρ c (Proc.devRef .tc main_v60)) i = _
  rw [Cert.ReferenceIdeal.ReadP.val_main_v64_apply, Cert.ReferenceIdeal.ReadP.val_main_v63_apply, Cert.ReferenceIdeal.ReadP.val_main_v62_apply]
  unfold rowAdd3
  rw [hagg, brow2_out m ρ c]
  have hidx : ix1 (⟨(i 1).val, idx2_lt1 i⟩ : Fin 32) = Cert.ReferenceIdeal.ReadP.idx_main_v62 (Cert.ReferenceIdeal.ReadP.idx_main_v63 i) :=
    funext fun a => by match a with | ⟨0, _⟩ => rfl
  rw [hidx]
  rfl

end Cert.KernelIdeal.Out

end
-- ==== Proof.Mat4.lean ====
/-
  Region 4 of the kernel's program multiplies a row block of its first operand by its whole second operand.
  Read at the extended reals, a change of float format is the identity and the accumulator starts at zero, so
  block `t` of the result holds, at row `r` and column `c`, the sum over `k` of `a (10000 t + r, k) * w (k, c)`.
  The ten blocks tile the rows, so after the region the whole result array is the matrix product of the two
  arrays as the region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- The matrix product of a `100000 × 32` array and a `32 × 64` array over the extended reals, entry by entry. -/
def prod4 (a : S100000x32.Idx → EReal) (w : S32x64.Idx → EReal) : S100000x64.Idx → EReal :=
  fun i => ∑ k : Fin 32, a (ix2 (⟨(i 0).val, idx2_lt0 i⟩ : Fin 100000) k) * w (ix2 k (⟨(i 1).val, idx2_lt1 i⟩ : Fin 64))

theorem zero_off4 : (![0, 0] : Fin 2 → Nat) = fun _ => 0 := funext fun a => by fin_cases a <;> rfl

/-- The left operand of the block product at output entry `j` and contraction position `k` is entry `(j 0, k)`. -/
theorem lhs4_eq (j : S10000x64.Idx) (k : Fin 32) :
    dot_S10000x32_S32x64_S10000x64_1_0_0_1_n_n.lhsIdx j ((contrEquiv1 dot_S10000x32_S32x64_S10000x64_1_0_0_1_n_n 32 rfl rfl).symm k)
      = ix2 (⟨(j 0).val, idx2_lt0 j⟩ : Fin 10000) k := by
  have hk := contrEquiv1_symm_val dot_S10000x32_S32x64_S10000x64_1_0_0_1_n_n 32 rfl rfl k
  funext a
  apply Fin.ext
  match a with
  | ⟨0, _⟩ =>
    show (dot_S10000x32_S32x64_S10000x64_1_0_0_1_n_n.lhsIdx j _ 0).val = (j 0).val
    unfold DotDims.lhsIdx
    rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
    rfl
  | ⟨1, _⟩ => exact (dot_S10000x32_S32x64_S10000x64_1_0_0_1_n_n.lhsIdx_val_of_single rfl j _).trans hk

/-- The right operand at the same place is entry `(k, j 1)`. -/
theorem rhs4_eq (j : S10000x64.Idx) (k : Fin 32) :
    dot_S10000x32_S32x64_S10000x64_1_0_0_1_n_n.rhsIdx j ((contrEquiv1 dot_S10000x32_S32x64_S10000x64_1_0_0_1_n_n 32 rfl rfl).symm k)
      = ix2 k (⟨(j 1).val, idx2_lt1 j⟩ : Fin 64) := by
  have hk := contrEquiv1_symm_val dot_S10000x32_S32x64_S10000x64_1_0_0_1_n_n 32 rfl rfl k
  funext a
  apply Fin.ext
  match a with
  | ⟨0, _⟩ => exact (dot_S10000x32_S32x64_S10000x64_1_0_0_1_n_n.rhsIdx_val_of_single rfl j _).trans hk
  | ⟨1, _⟩ =>
    show (dot_S10000x32_S32x64_S10000x64_1_0_0_1_n_n.rhsIdx j _ 1).val = (j 1).val
    unfold DotDims.rhsIdx
    rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
    rfl

/-- What the body stores, at an entry of the block: the row of the first block times the column of the second. -/
theorem pay4_apply (x0 : Vec Ideal S10000x32 .f32) (x1 : Vec Ideal S32x64 .f32) (j : S10000x64.Idx) :
    k4_pay1 x0 x1 j = ∑ k : Fin 32, x0 (ix2 (⟨(j 0).val, idx2_lt0 j⟩ : Fin 10000) k) * x1 (ix2 k (⟨(j 1).val, idx2_lt1 j⟩ : Fin 64)) := by
  unfold k4_pay1
  simp only [shapeCast_self]
  refine (Ideal.matmul_constant_zero_apply dot_S10000x32_S32x64_S10000x64_1_0_0_1_n_n none _ _ j).trans ?_
  rw [← Equiv.sum_comp (contrEquiv1 dot_S10000x32_S32x64_S10000x64_1_0_0_1_n_n 32 rfl rfl).symm]
  refine Finset.sum_congr rfl fun k _ => ?_
  rw [lhs4_eq, rhs4_eq]
  rfl

variable (V : (c : Dev nD) → (b : Ref sig .tc) → Buf (Elt Ideal) ((c : Thread nD τ).loc b))

/-- The printed index maps over the grid: the row blocks of the first operand and of the result move together with the
    point, and the second operand's one block stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region found them. -/
theorem flushed4_eq (c : Dev nD) (t : Fin cfg4.N) :
    (dat4 V c).flushed 2 t = ((cfg4.win 2).blk t).view.read (Elt Ideal) (prod4 (V c main_v61) (V c main_arg6)) := by
  show (cfg4.win 2).cut (grid4.coords t) ((dat4 V c).after 2 t) = _
  rw [after4_2]
  unfold out4_2
  rw [View.canon_unit_zero zero_off4]
  simp only [View.ld_unit_zero (S := S10000x32) zero_off4, View.ld_unit_zero (S := S32x64) zero_off4]
  obtain ⟨e0, e1, e2, e3, e4, e5⟩ := idx_facts4 t
  funext j
  show k4_pay1 (fun y => V c main_v61 (((cfg4.win 0).blk t).view.emb y)) (fun y => V c main_arg6 (((cfg4.win 1).blk t).view.emb y)) j
    = prod4 (V c main_v61) (V c main_arg6) (((cfg4.win 2).blk t).view.emb j)
  rw [pay4_apply]
  unfold prod4
  refine Finset.sum_congr rfl fun k _ => ?_
  have h0 : ((cfg4.win 0).blk t).view.emb (ix2 (⟨(j 0).val, idx2_lt0 j⟩ : Fin 10000) k)
      = ix2 (⟨((((cfg4.win 2).blk t).view.emb j) 0).val, idx2_lt0 _⟩ : Fin 100000) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 32 + 1 * k.val = k.val; omega
  have h1 : ((cfg4.win 1).blk t).view.emb (ix2 k (⟨(j 1).val, idx2_lt1 j⟩ : Fin 64))
      = ix2 k (⟨((((cfg4.win 2).blk t).view.emb j) 1).val, idx2_lt1 _⟩ : Fin 64) := by
    funext a; apply Fin.ext
    match a with
    | ⟨0, _⟩ => show win4_1.index t (0 : Fin 2) * 32 + 1 * k.val = k.val; omega
    | ⟨1, _⟩ => show win4_1.index t (1 : Fin 2) * 64 + 1 * (j 1).val = win4_2.index t (1 : Fin 2) * 64 + 1 * (j 1).val; omega
  rw [h0, h1]

/-- An entry of the result array lies in point `t`'s block exactly when its coordinates are in the block's ranges. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- Every entry of the result array is in the block of the point its row falls in. -/
theorem cover4 (i : S100000x64.Idx) : ∃ t : Fin cfg4.N, (cfg4.win 2).flush t = true ∧ i ∈ ((cfg4.win 2).blk t).view.set := by
  have hN : grid4.N = 10 := N_4
  have hi0 : (i 0).val < 100000 := idx2_lt0 i
  have hi1 : (i 1).val < 64 := idx2_lt1 i
  let t : Fin cfg4.N := ⟨(i 0).val / 10000, by show (i 0).val / 10000 < grid4.N; rw [hN]; omega⟩
  obtain ⟨e0, e1, e2, e3, e4, e5⟩ := idx_facts4 t
  have ht : t.val = (i 0).val / 10000 := rfl
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region the result array is the product of the two arrays the region was entered with. -/
theorem final4 (c : Dev nD) : (dat4 V c).arrAt 2 cfg4.N = prod4 (V c main_v61) (V c main_arg6) :=
  (dat4 V c).arrAt_eq_of_cover 2 (prod4 (V c main_v61) (V c main_arg6)) (fun t _ => flushed4_eq V c t) cover4

end Cert.KernelIdeal.Out

end
-- ==== Proof.Bias5.lean ====
/-
  Region 5 of the kernel's program adds a one-row array to every row of a row block and takes the maximum with zero.
  Block `t` of the result holds, at row `r` and column `c`, `a (10000 t + r, c) + b (0, c)`, capped below by zero; the ten
  blocks tile the rows, so after the region the whole result array is that function of the two arrays as the
  region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- Every row of `a` plus the one row of `b`, then the maximum with zero, entry by entry over the extended reals. -/
def rowAdd5 (a : S100000x64.Idx → EReal) (b : S1x64.Idx → EReal) : S100000x64.Idx → EReal :=
  fun i => max (a i + b (ix2 (0 : Fin 1) (⟨(i 1).val, idx2_lt1 i⟩ : Fin 64))) (Ideal.ofBits .f32 0x00000000#32)

theorem zero_off5 : (![0, 0] : Fin 2 → Nat) = fun _ => 0 := funext fun a => by fin_cases a <;> rfl

/-- What the body stores, at an entry of the block. -/
theorem pay5_apply (x0 : Vec Ideal S10000x64 .f32) (x1 : Vec Ideal S1x64 .f32) (j : S10000x64.Idx) :
    k5_pay1 x0 x1 j = max (x0 j + x1 (ix2 (0 : Fin 1) (⟨(j 1).val, idx2_lt1 j⟩ : Fin 64))) (Ideal.ofBits .f32 0x00000000#32) := by
  obtain ⟨p, q, rfl⟩ : ∃ (p : Fin 10000) (q : Fin 64), j = ix2 p q := ⟨j 0, j 1, eq_ix2 j⟩
  unfold k5_pay1
  show max (shapeCast S10000x64 x0 shapeCasts_S10000x64_S10000x64 (ix2 p q) + broadcastTo S10000x64 (shapeCast S1x64 x1 shapeCasts_S1x64_S1x64) broadcasts_S1x64_S10000x64 (ix2 p q)) (Ideal.ofBits .f32 0x00000000#32) = _
  rw [shapeCast_self, shapeCast_self, broadcastTo_1b_ab_apply]

variable (V : (c : Dev nD) → (b : Ref sig .tc) → Buf (Elt Ideal) ((c : Thread nD τ).loc b))

/-- The printed index maps over the grid: the row blocks of the first operand and of the result move together with the
    point, and the one-row operand's block stays. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the row sum of the two arrays as the region found them. -/
theorem flushed5_eq (c : Dev nD) (t : Fin cfg5.N) :
    (dat5 V c).flushed 2 t = ((cfg5.win 2).blk t).view.read (Elt Ideal) (rowAdd5 (V c main_v75) (V c main_v76)) := by
  show (cfg5.win 2).cut (grid5.coords t) ((dat5 V c).after 2 t) = _
  rw [after5_2]
  unfold out5_2
  rw [View.canon_unit_zero zero_off5]
  simp only [View.ld_unit_zero (S := S10000x64) zero_off5, View.ld_unit_zero (S := S1x64) zero_off5]
  obtain ⟨e0, e1, e2, e3, e4, e5⟩ := idx_facts5 t
  funext j
  show k5_pay1 (fun y => V c main_v75 (((cfg5.win 0).blk t).view.emb y)) (fun y => V c main_v76 (((cfg5.win 1).blk t).view.emb y)) j
    = rowAdd5 (V c main_v75) (V c main_v76) (((cfg5.win 2).blk t).view.emb j)
  rw [pay5_apply]
  unfold rowAdd5
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (⟨(j 1).val, idx2_lt1 j⟩ : Fin 64))
      = ix2 (0 : Fin 1) (⟨((((cfg5.win 2).blk t).view.emb j) 1).val, idx2_lt1 _⟩ : Fin 64) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]

/-- An entry of the result array lies in point `t`'s block exactly when its coordinates are in the block's ranges. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

/-- Every entry of the result array is in the block of the point its row falls in. -/
theorem cover5 (i : S100000x64.Idx) : ∃ t : Fin cfg5.N, (cfg5.win 2).flush t = true ∧ i ∈ ((cfg5.win 2).blk t).view.set := by
  have hN : grid5.N = 10 := N_5
  have hi0 : (i 0).val < 100000 := idx2_lt0 i
  have hi1 : (i 1).val < 64 := idx2_lt1 i
  let t : Fin cfg5.N := ⟨(i 0).val / 10000, by show (i 0).val / 10000 < grid5.N; rw [hN]; omega⟩
  obtain ⟨e0, e1, e2, e3, e4, e5⟩ := idx_facts5 t
  have ht : t.val = (i 0).val / 10000 := rfl
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region the result array is the row sum of the two arrays the region was entered with. -/
theorem final5 (c : Dev nD) : (dat5 V c).arrAt 2 cfg5.N = rowAdd5 (V c main_v75) (V c main_v76) :=
  (dat5 V c).arrAt_eq_of_cover 2 (rowAdd5 (V c main_v75) (V c main_v76)) (fun t _ => flushed5_eq V c t) cover5

end Cert.KernelIdeal.Out

end
-- ==== Proof.Layer3.lean ====
/-
  Layer 3 of the network, on the kernel's side: a region multiplies the layer's input by its weights, a stretch of host
  operations gathers the product's rows along the edges, scales them by the edge weights and sums them into the
  destination rows, and a second region adds the bias row and caps the sum below by zero. Given what the edge arrays and the layer's input
  hold when the layer starts, the layer's output array is the reference's value at the same stage, as whole arrays.
-/
import proofs.«166450_j35880156790969_1_alg».proof.Proof.Gen.KernelIdeal.Frame
import proofs.«166450_j35880156790969_1_alg».proof.Proof.RefRead
import proofs.«166450_j35880156790969_1_alg».proof.Proof.Mat4
import proofs.«166450_j35880156790969_1_alg».proof.Proof.Bias5
import proofs.«166450_j35880156790969_1_alg».proof.Proof.KeepArgs
import proofs.«166450_j35880156790969_1_alg».proof.Proof.KeepEdges
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo
open Idealize.ShloMosaic.ValueIdx

namespace Cert.KernelIdeal.Out

open Cert.KernelIdeal Cert.KernelIdeal.Gen

variable (m : (ℓ : Loc nD τ sig) → Buf (Elt Ideal) ℓ) (ρ : Dev nD → PrngReg)

/-- The kernel's block-tiled product of the layer's input and weights is the host's `dot_general` of the same arrays: entry
    by entry both are the sum over the contracted axis of the row's entries times the column's. -/
theorem prod4_ref (c : Dev nD) :
    prod4 (Cert.ReferenceIdeal.ReadP.val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) = Cert.ReferenceIdeal.ReadP.val_main_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  rw [Cert.ReferenceIdeal.ReadP.val_main_v65_apply]
  unfold prod4
  refine Finset.sum_congr rfl fun k _ => ?_
  have el : Cert.ReferenceIdeal.ReadP.lidx_main_v65 i k = ix2 (⟨(i 0).val, idx2_lt0 i⟩ : Fin 100000) k :=
    funext fun a => by match a with | ⟨0, _⟩ => rfl | ⟨1, _⟩ => rfl
  have er : Cert.ReferenceIdeal.ReadP.ridx_main_v65 i k = ix2 k (⟨(i 1).val, idx2_lt1 i⟩ : Fin 64) :=
    funext fun a => by match a with | ⟨0, _⟩ => rfl | ⟨1, _⟩ => rfl
  rw [el, er]

/-- After the first region the product array holds the reference's product. -/
theorem mat3_out (c : Dev nD)
    (hin : W9 m ρ c (Proc.devRef .tc main_v61) = Cert.ReferenceIdeal.ReadP.val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W10 m ρ c (Proc.devRef .tc main_v62) = Cert.ReferenceIdeal.ReadP.val_main_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  rw [final4 (V9 m ρ) c]
  show prod4 (W9 m ρ c (Proc.devRef .tc main_v61)) (W9 m ρ c (Proc.devRef .tc main_arg6)) = _
  rw [hin, arg6_at9 m ρ c]
  exact prod4_ref m c

/-- After the host stretch the aggregated array holds the reference's: the same operations on the same operands. -/
theorem agg3_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hmat : W10 m ρ c (Proc.devRef .tc main_v62) = Cert.ReferenceIdeal.ReadP.val_main_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W11 m ρ c (Proc.devRef .tc main_v75) = Cert.ReferenceIdeal.ReadP.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v75) = _
  after_results_simp
  rw [hmat, v3_at10_from7 m ρ c, v3_at7_from4 m ρ c, v3_at4_from3 m ρ c, v6_at10_from7 m ρ c, v6_at7_from4 m ρ c, v6_at4_from3 m ρ c, v29_at10_from7 m ρ c, v29_at7_from4 m ρ c, v29_at4_from3 m ρ c, h3, h6, h29]
  rfl

/-- After the host stretch the bias row, reshaped to one row, holds the bias entries. -/
theorem brow3_out (c : Dev nD) (q : Fin 64) :
    W11 m ρ c (Proc.devRef .tc main_v76) (ix2 (0 : Fin 1) q) = (m ((c : Thread nD τ).loc main_arg7)) (ix1 q) := by
  show StableHlo.after hostOps5 (W10 m ρ c) (Proc.devRef .tc main_v76) (ix2 (0 : Fin 1) q) = _
  after_results_simp
  rw [arg7_at10 m ρ c]
  exact shapeCast_a_1a_apply _ _ 0 q

/-- The layer's output array is the reference's value at the same stage. -/
theorem layer3_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hin : W9 m ρ c (Proc.devRef .tc main_v61) = Cert.ReferenceIdeal.ReadP.val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W12 m ρ c (Proc.devRef .tc main_v77) = Cert.ReferenceIdeal.ReadP.val_main_v82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hmat := mat3_out m ρ c hin
  have hagg := agg3_out m ρ c h3 h6 h29 hmat
  refine (W12_arr m ρ c 2).trans ?_
  rw [final5 (V11 m ρ) c]
  funext i
  show rowAdd5 (W11 m ρ c (Proc.devRef .tc main_v75)) (W11 m ρ c (Proc.devRef .tc main_v76)) i = _
  rw [Cert.ReferenceIdeal.ReadP.val_main_v82_apply, Cert.ReferenceIdeal.ReadP.val_main_v81_apply, Cert.ReferenceIdeal.ReadP.val_main_v80_apply, Cert.ReferenceIdeal.ReadP.val_main_v79_apply, Cert.ReferenceIdeal.ReadP.val_main_call2_v0_apply, Cert.ReferenceIdeal.ReadP.val_main_call2_cst_apply]
  unfold rowAdd5
  rw [hagg, brow3_out m ρ c]
  have hidx : ix1 (⟨(i 1).val, idx2_lt1 i⟩ : Fin 64) = Cert.ReferenceIdeal.ReadP.idx_main_v79 (Cert.ReferenceIdeal.ReadP.idx_main_v80 i) :=
    funext fun a => by match a with | ⟨0, _⟩ => rfl
  rw [hidx]
  rfl

end Cert.KernelIdeal.Out

end
-- ==== Proof.Mat6.lean ====
/-
  Region 6 of the kernel's program multiplies a row block of its first operand by its whole second operand.
  Read at the extended reals, a change of float format is the identity and the accumulator starts at zero, so
  block `t` of the result holds, at row `r` and column `c`, the sum over `k` of `a (10000 t + r, k) * w (k, c)`.
  The ten blocks tile the rows, so after the region the whole result array is the matrix product of the two
  arrays as the region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- The matrix product of a `100000 × 64` array and a `64 × 128` array over the extended reals, entry by entry. -/
def prod6 (a : S100000x64.Idx → EReal) (w : S64x128.Idx → EReal) : S100000x128.Idx → EReal :=
  fun i => ∑ k : Fin 64, a (ix2 (⟨(i 0).val, idx2_lt0 i⟩ : Fin 100000) k) * w (ix2 k (⟨(i 1).val, idx2_lt1 i⟩ : Fin 128))

theorem zero_off6 : (![0, 0] : Fin 2 → Nat) = fun _ => 0 := funext fun a => by fin_cases a <;> rfl

/-- The left operand of the block product at output entry `j` and contraction position `k` is entry `(j 0, k)`. -/
theorem lhs6_eq (j : S10000x128.Idx) (k : Fin 64) :
    dot_S10000x64_S64x128_S10000x128_1_0_0_1_n_n.lhsIdx j ((contrEquiv1 dot_S10000x64_S64x128_S10000x128_1_0_0_1_n_n 64 rfl rfl).symm k)
      = ix2 (⟨(j 0).val, idx2_lt0 j⟩ : Fin 10000) k := by
  have hk := contrEquiv1_symm_val dot_S10000x64_S64x128_S10000x128_1_0_0_1_n_n 64 rfl rfl k
  funext a
  apply Fin.ext
  match a with
  | ⟨0, _⟩ =>
    show (dot_S10000x64_S64x128_S10000x128_1_0_0_1_n_n.lhsIdx j _ 0).val = (j 0).val
    unfold DotDims.lhsIdx
    rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
    rfl
  | ⟨1, _⟩ => exact (dot_S10000x64_S64x128_S10000x128_1_0_0_1_n_n.lhsIdx_val_of_single rfl j _).trans hk

/-- The right operand at the same place is entry `(k, j 1)`. -/
theorem rhs6_eq (j : S10000x128.Idx) (k : Fin 64) :
    dot_S10000x64_S64x128_S10000x128_1_0_0_1_n_n.rhsIdx j ((contrEquiv1 dot_S10000x64_S64x128_S10000x128_1_0_0_1_n_n 64 rfl rfl).symm k)
      = ix2 k (⟨(j 1).val, idx2_lt1 j⟩ : Fin 128) := by
  have hk := contrEquiv1_symm_val dot_S10000x64_S64x128_S10000x128_1_0_0_1_n_n 64 rfl rfl k
  funext a
  apply Fin.ext
  match a with
  | ⟨0, _⟩ => exact (dot_S10000x64_S64x128_S10000x128_1_0_0_1_n_n.rhsIdx_val_of_single rfl j _).trans hk
  | ⟨1, _⟩ =>
    show (dot_S10000x64_S64x128_S10000x128_1_0_0_1_n_n.rhsIdx j _ 1).val = (j 1).val
    unfold DotDims.rhsIdx
    rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
    rfl

/-- What the body stores, at an entry of the block: the row of the first block times the column of the second. -/
theorem pay6_apply (x0 : Vec Ideal S10000x64 .f32) (x1 : Vec Ideal S64x128 .f32) (j : S10000x128.Idx) :
    k6_pay1 x0 x1 j = ∑ k : Fin 64, x0 (ix2 (⟨(j 0).val, idx2_lt0 j⟩ : Fin 10000) k) * x1 (ix2 k (⟨(j 1).val, idx2_lt1 j⟩ : Fin 128)) := by
  unfold k6_pay1
  simp only [shapeCast_self]
  refine (Ideal.matmul_constant_zero_apply dot_S10000x64_S64x128_S10000x128_1_0_0_1_n_n none _ _ j).trans ?_
  rw [← Equiv.sum_comp (contrEquiv1 dot_S10000x64_S64x128_S10000x128_1_0_0_1_n_n 64 rfl rfl).symm]
  refine Finset.sum_congr rfl fun k _ => ?_
  rw [lhs6_eq, rhs6_eq]
  rfl

variable (V : (c : Dev nD) → (b : Ref sig .tc) → Buf (Elt Ideal) ((c : Thread nD τ).loc b))

/-- The printed index maps over the grid: the row blocks of the first operand and of the result move together with the
    point, and the second operand's one block stays. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the product of the two arrays as the region found them. -/
theorem flushed6_eq (c : Dev nD) (t : Fin cfg6.N) :
    (dat6 V c).flushed 2 t = ((cfg6.win 2).blk t).view.read (Elt Ideal) (prod6 (V c main_v77) (V c main_arg8)) := by
  show (cfg6.win 2).cut (grid6.coords t) ((dat6 V c).after 2 t) = _
  rw [after6_2]
  unfold out6_2
  rw [View.canon_unit_zero zero_off6]
  simp only [View.ld_unit_zero (S := S10000x64) zero_off6, View.ld_unit_zero (S := S64x128) zero_off6]
  obtain ⟨e0, e1, e2, e3, e4, e5⟩ := idx_facts6 t
  funext j
  show k6_pay1 (fun y => V c main_v77 (((cfg6.win 0).blk t).view.emb y)) (fun y => V c main_arg8 (((cfg6.win 1).blk t).view.emb y)) j
    = prod6 (V c main_v77) (V c main_arg8) (((cfg6.win 2).blk t).view.emb j)
  rw [pay6_apply]
  unfold prod6
  refine Finset.sum_congr rfl fun k _ => ?_
  have h0 : ((cfg6.win 0).blk t).view.emb (ix2 (⟨(j 0).val, idx2_lt0 j⟩ : Fin 10000) k)
      = ix2 (⟨((((cfg6.win 2).blk t).view.emb j) 0).val, idx2_lt0 _⟩ : Fin 100000) k := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * k.val = k.val; omega
  have h1 : ((cfg6.win 1).blk t).view.emb (ix2 k (⟨(j 1).val, idx2_lt1 j⟩ : Fin 128))
      = ix2 k (⟨((((cfg6.win 2).blk t).view.emb j) 1).val, idx2_lt1 _⟩ : Fin 128) := by
    funext a; apply Fin.ext
    match a with
    | ⟨0, _⟩ => show win6_1.index t (0 : Fin 2) * 64 + 1 * k.val = k.val; omega
    | ⟨1, _⟩ => show win6_1.index t (1 : Fin 2) * 128 + 1 * (j 1).val = win6_2.index t (1 : Fin 2) * 128 + 1 * (j 1).val; omega
  rw [h0, h1]

/-- An entry of the result array lies in point `t`'s block exactly when its coordinates are in the block's ranges. -/
theorem mem_blk6 (t : Fin cfg6.N) (i : S100000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v78).slice (win6_2.rect t)).set ↔ _
  rw [View.set_slice_whole, Rect.mem_set_unit]
  exact Iff.rfl

/-- Every entry of the result array is in the block of the point its row falls in. -/
theorem cover6 (i : S100000x128.Idx) : ∃ t : Fin cfg6.N, (cfg6.win 2).flush t = true ∧ i ∈ ((cfg6.win 2).blk t).view.set := by
  have hN : grid6.N = 10 := N_6
  have hi0 : (i 0).val < 100000 := idx2_lt0 i
  have hi1 : (i 1).val < 128 := idx2_lt1 i
  let t : Fin cfg6.N := ⟨(i 0).val / 10000, by show (i 0).val / 10000 < grid6.N; rw [hN]; omega⟩
  obtain ⟨e0, e1, e2, e3, e4, e5⟩ := idx_facts6 t
  have ht : t.val = (i 0).val / 10000 := rfl
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 128 ≤ (i 1).val ∧ (i 1).val < win6_2.index t (1 : Fin 2) * 128 + 128; omega

/-- After the region the result array is the product of the two arrays the region was entered with. -/
theorem final6 (c : Dev nD) : (dat6 V c).arrAt 2 cfg6.N = prod6 (V c main_v77) (V c main_arg8) :=
  (dat6 V c).arrAt_eq_of_cover 2 (prod6 (V c main_v77) (V c main_arg8)) (fun t _ => flushed6_eq V c t) cover6

end Cert.KernelIdeal.Out

end
-- ==== Proof.Bias7.lean ====
/-
  Region 7 of the kernel's program adds a one-row array to every row of a row block.
  Block `t` of the result holds, at row `r` and column `c`, `a (10000 t + r, c) + b (0, c)`; the ten
  blocks tile the rows, so after the region the whole result array is that function of the two arrays as the
  region found them — whatever those arrays are.
-/
import proofs.«166450_j35880156790969_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Out

open Cert.KernelIdeal Cert.KernelIdeal.Gen

/-- Every row of `a` plus the one row of `b`, entry by entry over the extended reals. -/
def rowAdd7 (a : S100000x128.Idx → EReal) (b : S1x128.Idx → EReal) : S100000x128.Idx → EReal :=
  fun i => a i + b (ix2 (0 : Fin 1) (⟨(i 1).val, idx2_lt1 i⟩ : Fin 128))

theorem zero_off7 : (![0, 0] : Fin 2 → Nat) = fun _ => 0 := funext fun a => by fin_cases a <;> rfl

/-- What the body stores, at an entry of the block. -/
theorem pay7_apply (x0 : Vec Ideal S10000x128 .f32) (x1 : Vec Ideal S1x128 .f32) (j : S10000x128.Idx) :
    k7_pay1 x0 x1 j = x0 j + x1 (ix2 (0 : Fin 1) (⟨(j 1).val, idx2_lt1 j⟩ : Fin 128)) := by
  obtain ⟨p, q, rfl⟩ : ∃ (p : Fin 10000) (q : Fin 128), j = ix2 p q := ⟨j 0, j 1, eq_ix2 j⟩
  unfold k7_pay1
  show shapeCast S10000x128 x0 shapeCasts_S10000x128_S10000x128 (ix2 p q) + broadcastTo S10000x128 (shapeCast S1x128 x1 shapeCasts_S1x128_S1x128) broadcasts_S1x128_S10000x128 (ix2 p q) = _
  rw [shapeCast_self, shapeCast_self, broadcastTo_1b_ab_apply]

variable (V : (c : Dev nD) → (b : Ref sig .tc) → Buf (Elt Ideal) ((c : Thread nD τ).loc b))

/-- The printed index maps over the grid: the row blocks of the first operand and of the result move together with the
    point, and the one-row operand's block stays. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the row sum of the two arrays as the region found them. -/
theorem flushed7_eq (c : Dev nD) (t : Fin cfg7.N) :
    (dat7 V c).flushed 2 t = ((cfg7.win 2).blk t).view.read (Elt Ideal) (rowAdd7 (V c main_v91) (V c main_v92)) := by
  show (cfg7.win 2).cut (grid7.coords t) ((dat7 V c).after 2 t) = _
  rw [after7_2]
  unfold out7_2
  rw [View.canon_unit_zero zero_off7]
  simp only [View.ld_unit_zero (S := S10000x128) zero_off7, View.ld_unit_zero (S := S1x128) zero_off7]
  obtain ⟨e0, e1, e2, e3, e4, e5⟩ := idx_facts7 t
  funext j
  show k7_pay1 (fun y => V c main_v91 (((cfg7.win 0).blk t).view.emb y)) (fun y => V c main_v92 (((cfg7.win 1).blk t).view.emb y)) j
    = rowAdd7 (V c main_v91) (V c main_v92) (((cfg7.win 2).blk t).view.emb j)
  rw [pay7_apply]
  unfold rowAdd7
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb (ix2 (0 : Fin 1) (⟨(j 1).val, idx2_lt1 j⟩ : Fin 128))
      = ix2 (0 : Fin 1) (⟨((((cfg7.win 2).blk t).view.emb j) 1).val, idx2_lt1 _⟩ : Fin 128) := by
    funext a; apply Fin.ext
    match a with
    | ⟨0, _⟩ => show win7_1.index t (0 : Fin 2) * 1 + 1 * 0 = 0; omega
    | ⟨1, _⟩ => show win7_1.index t (1 : Fin 2) * 128 + 1 * (j 1).val = win7_2.index t (1 : Fin 2) * 128 + 1 * (j 1).val; omega
  rw [h0, h1]

/-- An entry of the result array lies in point `t`'s block exactly when its coordinates are in the block's ranges. -/
theorem mem_blk7 (t : Fin cfg7.N) (i : S100000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v93).slice (win7_2.rect t)).set ↔ _
  rw [View.set_slice_whole, Rect.mem_set_unit]
  exact Iff.rfl

/-- Every entry of the result array is in the block of the point its row falls in. -/
theorem cover7 (i : S100000x128.Idx) : ∃ t : Fin cfg7.N, (cfg7.win 2).flush t = true ∧ i ∈ ((cfg7.win 2).blk t).view.set := by
  have hN : grid7.N = 10 := N_7
  have hi0 : (i 0).val < 100000 := idx2_lt0 i
  have hi1 : (i 1).val < 128 := idx2_lt1 i
  let t : Fin cfg7.N := ⟨(i 0).val / 10000, by show (i 0).val / 10000 < grid7.N; rw [hN]; omega⟩
  obtain ⟨e0, e1, e2, e3, e4, e5⟩ := idx_facts7 t
  have ht : t.val = (i 0).val / 10000 := rfl
  refine ⟨t, flush7_2 t, ?_⟩
  rw [mem_blk7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 128 ≤ (i 1).val ∧ (i 1).val < win7_2.index t (1 : Fin 2) * 128 + 128; omega

/-- After the region the result array is the row sum of the two arrays the region was entered with. -/
theorem final7 (c : Dev nD) : (dat7 V c).arrAt 2 cfg7.N = rowAdd7 (V c main_v91) (V c main_v92) :=
  (dat7 V c).arrAt_eq_of_cover 2 (rowAdd7 (V c main_v91) (V c main_v92)) (fun t _ => flushed7_eq V c t) cover7

end Cert.KernelIdeal.Out

end
-- ==== Proof.Layer4.lean ====
/-
  Layer 4 of the network, on the kernel's side: a region multiplies the layer's input by its weights, a stretch of host
  operations gathers the product's rows along the edges, scales them by the edge weights and sums them into the
  destination rows, and a second region adds the bias row. Given what the edge arrays and the layer's input
  hold when the layer starts, the layer's output array is the reference's value at the same stage, as whole arrays.
-/
import proofs.«166450_j35880156790969_1_alg».proof.Proof.Gen.KernelIdeal.Frame
import proofs.«166450_j35880156790969_1_alg».proof.Proof.RefRead
import proofs.«166450_j35880156790969_1_alg».proof.Proof.Mat6
import proofs.«166450_j35880156790969_1_alg».proof.Proof.Bias7
import proofs.«166450_j35880156790969_1_alg».proof.Proof.KeepArgs
import proofs.«166450_j35880156790969_1_alg».proof.Proof.KeepEdges
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo
open Idealize.ShloMosaic.ValueIdx

namespace Cert.KernelIdeal.Out

open Cert.KernelIdeal Cert.KernelIdeal.Gen

variable (m : (ℓ : Loc nD τ sig) → Buf (Elt Ideal) ℓ) (ρ : Dev nD → PrngReg)

/-- The kernel's block-tiled product of the layer's input and weights is the host's `dot_general` of the same arrays: entry
    by entry both are the sum over the contracted axis of the row's entries times the column's. -/
theorem prod6_ref (c : Dev nD) :
    prod6 (Cert.ReferenceIdeal.ReadP.val_main_v82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) = Cert.ReferenceIdeal.ReadP.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [Cert.ReferenceIdeal.ReadP.val_main_v83_apply]
  unfold prod6
  refine Finset.sum_congr rfl fun k _ => ?_
  have el : Cert.ReferenceIdeal.ReadP.lidx_main_v83 i k = ix2 (⟨(i 0).val, idx2_lt0 i⟩ : Fin 100000) k :=
    funext fun a => by match a with | ⟨0, _⟩ => rfl | ⟨1, _⟩ => rfl
  have er : Cert.ReferenceIdeal.ReadP.ridx_main_v83 i k = ix2 k (⟨(i 1).val, idx2_lt1 i⟩ : Fin 128) :=
    funext fun a => by match a with | ⟨0, _⟩ => rfl | ⟨1, _⟩ => rfl
  rw [el, er]

/-- After the first region the product array holds the reference's product. -/
theorem mat4_out (c : Dev nD)
    (hin : W12 m ρ c (Proc.devRef .tc main_v77) = Cert.ReferenceIdeal.ReadP.val_main_v82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W13 m ρ c (Proc.devRef .tc main_v78) = Cert.ReferenceIdeal.ReadP.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ?_
  rw [final6 (V12 m ρ) c]
  show prod6 (W12 m ρ c (Proc.devRef .tc main_v77)) (W12 m ρ c (Proc.devRef .tc main_arg8)) = _
  rw [hin, arg8_at12 m ρ c]
  exact prod6_ref m c

/-- After the host stretch the aggregated array holds the reference's: the same operations on the same operands. -/
theorem agg4_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hmat : W13 m ρ c (Proc.devRef .tc main_v78) = Cert.ReferenceIdeal.ReadP.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W14 m ρ c (Proc.devRef .tc main_v91) = Cert.ReferenceIdeal.ReadP.val_main_v96 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W13 m ρ c) (Proc.devRef .tc main_v91) = _
  after_results_simp
  rw [hmat, v3_at13_from10 m ρ c, v3_at10_from7 m ρ c, v3_at7_from4 m ρ c, v3_at4_from3 m ρ c, v6_at13_from10 m ρ c, v6_at10_from7 m ρ c, v6_at7_from4 m ρ c, v6_at4_from3 m ρ c, v29_at13_from10 m ρ c, v29_at10_from7 m ρ c, v29_at7_from4 m ρ c, v29_at4_from3 m ρ c, h3, h6, h29]
  rfl

/-- After the host stretch the bias row, reshaped to one row, holds the bias entries. -/
theorem brow4_out (c : Dev nD) (q : Fin 128) :
    W14 m ρ c (Proc.devRef .tc main_v92) (ix2 (0 : Fin 1) q) = (m ((c : Thread nD τ).loc main_arg9)) (ix1 q) := by
  show StableHlo.after hostOps7 (W13 m ρ c) (Proc.devRef .tc main_v92) (ix2 (0 : Fin 1) q) = _
  after_results_simp
  rw [arg9_at13 m ρ c]
  exact shapeCast_a_1a_apply _ _ 0 q

/-- The layer's output array is the reference's value at the same stage. -/
theorem layer4_out (c : Dev nD)
    (h3 : W3 m ρ c (Proc.devRef .tc main_v3) = Cert.ReferenceIdeal.ReadP.val_main_v3 (m ((c : Thread nD τ).loc main_arg1)))
    (h6 : W3 m ρ c (Proc.devRef .tc main_v6) = Cert.ReferenceIdeal.ReadP.val_main_v6 (m ((c : Thread nD τ).loc main_arg1)))
    (h29 : W3 m ρ c (Proc.devRef .tc main_v29) = Cert.ReferenceIdeal.ReadP.val_main_v29 (m ((c : Thread nD τ).loc main_arg1)))
    (hin : W12 m ρ c (Proc.devRef .tc main_v77) = Cert.ReferenceIdeal.ReadP.val_main_v82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W15 m ρ c (Proc.devRef .tc main_v93) = Cert.ReferenceIdeal.ReadP.val_main_v99 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hmat := mat4_out m ρ c hin
  have hagg := agg4_out m ρ c h3 h6 h29 hmat
  refine (W15_arr m ρ c 2).trans ?_
  rw [final7 (V14 m ρ) c]
  funext i
  show rowAdd7 (W14 m ρ c (Proc.devRef .tc main_v91)) (W14 m ρ c (Proc.devRef .tc main_v92)) i = _
  rw [Cert.ReferenceIdeal.ReadP.val_main_v99_apply, Cert.ReferenceIdeal.ReadP.val_main_v98_apply, Cert.ReferenceIdeal.ReadP.val_main_v97_apply]
  unfold rowAdd7
  rw [hagg, brow4_out m ρ c]
  have hidx : ix1 (⟨(i 1).val, idx2_lt1 i⟩ : Fin 128) = Cert.ReferenceIdeal.ReadP.idx_main_v97 (Cert.ReferenceIdeal.ReadP.idx_main_v98 i) :=
    funext fun a => by match a with | ⟨0, _⟩ => rfl
  rw [hidx]
  rfl

end Cert.KernelIdeal.Out

end
-- ==== Proof.KValue.lean ====
/-
  The two results of the kernel's program as whole arrays: four layers chained, each layer's output the next one's input,
  the edge arrays shared by all four. The first result is the fourth layer's output, the second the second layer's,
  which nothing after the second layer writes.
-/
import proofs.«166450_j35880156790969_1_alg».proof.Proof.Edges
import proofs.«166450_j35880156790969_1_alg».proof.Proof.Layer1
import proofs.«166450_j35880156790969_1_alg».proof.Proof.Layer2
import proofs.«166450_j35880156790969_1_alg».proof.Proof.Layer3
import proofs.«166450_j35880156790969_1_alg».proof.Proof.Layer4

set_option maxRecDepth 16384

noncomputable section

open Idealize.ShloMosaic Idealize.ShloMosaic.TcCoe Idealize.SL.Sem

namespace Cert.KernelIdeal.Out

open Cert.KernelIdeal Cert.KernelIdeal.Gen

variable (m : (ℓ : Loc nD τ sig) → Buf (Elt Ideal) ℓ) (ρ : Dev nD → PrngReg)

/-- The second layer's output at the boundary after its bias region. -/
theorem latent (c : Dev nD) : W9 m ρ c (Proc.devRef .tc main_v61) = Cert.ReferenceIdeal.ReadP.val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layer2_out m ρ c (edges_src m ρ c) (edges_dst m ρ c) (edges_norm m ρ c)
    (layer1_out m ρ c (edges_src m ρ c) (edges_dst m ρ c) (edges_norm m ρ c))

/-- The first result at the end of the run: the fourth layer's output. -/
theorem result0 (c : Dev nD) : W15 m ρ c (Proc.devRef .tc main_v93) = Cert.ReferenceIdeal.ReadP.val_main_v99 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  layer4_out m ρ c (edges_src m ρ c) (edges_dst m ρ c) (edges_norm m ρ c)
    (layer3_out m ρ c (edges_src m ρ c) (edges_dst m ρ c) (edges_norm m ρ c) (latent m ρ c))

/-- The second result at the end of the run: the second layer's output, kept. -/
theorem result1 (c : Dev nD) : W15 m ρ c (Proc.devRef .tc main_v61) = Cert.ReferenceIdeal.ReadP.val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (v61_at15 m ρ c).trans (latent m ρ c)

end Cert.KernelIdeal.Out

end
-- ==== Proof.lean ====
/-
  The certificate of the graph autoencoder kernel against its jnp reference.

  Both programs compute, from the node features, the edge list and four weight/bias pairs, four graph-convolution
  layers `h ↦ scatter_add(dst, (h W)[src] * norm) + b` (a maximum with zero after the first and the third), with the
  same edge lists and weights `norm` built by the same host operations. The kernel's program does each layer's product
  `h W` and each bias addition in a row-tiled region (ten blocks of 10000 rows); read at the extended reals the
  rounding of the product's operands to a narrower format is the identity, so a region's blocks are the blocks of the
  whole product, respectively of the whole row sum, and the kernel's two results are the reference's, array by array.
  No arithmetic law beyond reading the two matrix products as the same sums is used, so the finiteness of the inputs
  is not needed.

  The three frames: the kernel's two are the generated frame proofs; the reference's is its run with the results dropped.
  The idealization rewrote nothing, so `preserves` is trivial.
-/
import proofs.«166450_j35880156790969_1_alg».proof.Defs
import proofs.«166450_j35880156790969_1_alg».proof.Proof.Gen.Kernel
import proofs.«166450_j35880156790969_1_alg».proof.Proof.Gen.Kernel.Frame
import proofs.«166450_j35880156790969_1_alg».proof.Proof.Gen.KernelIdeal
import proofs.«166450_j35880156790969_1_alg».proof.Proof.Gen.KernelIdeal.Frame
import proofs.«166450_j35880156790969_1_alg».proof.Proof.Gen.ReferenceIdeal
import proofs.«166450_j35880156790969_1_alg».proof.Proof.Gen.Pre_finite_inputs
import proofs.«166450_j35880156790969_1_alg».proof.Proof.RefRun
import proofs.«166450_j35880156790969_1_alg».proof.Proof.RefRead
import proofs.«166450_j35880156790969_1_alg».proof.Proof.KRun
import proofs.«166450_j35880156790969_1_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the reference's staged values of the arguments: the kernel's by the layer-by-layer reading of
    its run, the reference's by its own run. -/
theorem algebraic : Cert.algebraic_KernelIdeal_ReferenceIdeal := by
  intro m ρ m' ρ' _ hagree
  refine ⟨fun c => Cert.ReferenceIdeal.ReadP.val_main_v99 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v64 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Out.result0 m ρ c), (h c).2.1.trans (Cert.KernelIdeal.Out.result1 m ρ c), (h c).2.2⟩)
      (Cert.KernelIdeal.Out.run_out (F := Ideal) m ρ)
  · refine (θ_run Cert.ReferenceIdeal.defs _ _).mono (fun r h c => ?_) (Cert.ReferenceIdeal.ValueP.run (F := Ideal) m' ρ')
    obtain ⟨a0, a1, a2, a3, a4, a5, a6, a7, a8, a9⟩ := hagree c
    refine ⟨(h c).1.trans ?_, (h c).2.1.trans ?_, (h c).2.2⟩
    · rw [Cert.ReferenceIdeal.ReadP.val_main_v99_eq, a0, a1, a2, a3, a4, a5, a6, a7, a8, a9]
    · rw [Cert.ReferenceIdeal.ReadP.val_main_v64_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
